-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x64 : Shape := ⟨3, ![32, 2048, 64]⟩
abbrev S_ : Shape := ⟨0, ![]⟩

class Facts : Prop where
  bcast_S_S32x2048x64 : S_.BroadcastsInDim S32x2048x64 (![] : Fin 0 → Fin S32x2048x64.rank)
  reducesTo_S32x2048x64_S_d0_1_2 : S32x2048x64.ReducesTo [0, 1, 2] S_
  h_S_ : 0 < S_.numel

variable [Facts]

def fn {F : FTy → Type} [FloatOps F] (main_arg0 : FVec F S32x2048x64 .f32) (main_arg1 : FVec F S32x2048x64 .f32) (main_arg2 : FVec F S32x2048x64 .f32) : IVec S_ 1 :=
  let main_v0 : FVec F S32x2048x64 .f32 := Host.absf main_arg0
  let main_cst : FVec F S_ .f32 := constant S_ .f32 0x7F800000#32
  let main_v1 : FVec F S32x2048x64 .f32 := broadcastInDim S32x2048x64 ![] bcast_S_S32x2048x64 main_cst
  let main_v2 : IVec S32x2048x64 1 := cmpf .olt main_v0 main_v1
  let main_c : IVec S_ 1 := constantI S_ 1 1#1
  let main_v3 : IVec S_ 1 := (fun x v => Host.reduce IntOp.andi x v reducesTo_S32x2048x64_S_d0_1_2 h_S_) main_v2 main_c
  let main_v4 : FVec F S32x2048x64 .f32 := Host.absf main_arg1
  let main_cst_0 : FVec F S_ .f32 := constant S_ .f32 0x7F800000#32
  let main_v5 : FVec F S32x2048x64 .f32 := broadcastInDim S32x2048x64 ![] bcast_S_S32x2048x64 main_cst_0
  let main_v6 : IVec S32x2048x64 1 := cmpf .olt main_v4 main_v5
  let main_c_1 : IVec S_ 1 := constantI S_ 1 1#1
  let main_v7 : IVec S_ 1 := (fun x v => Host.reduce IntOp.andi x v reducesTo_S32x2048x64_S_d0_1_2 h_S_) main_v6 main_c_1
  let main_v8 : IVec S_ 1 := andi main_v3 main_v7
  let main_v9 : FVec F S32x2048x64 .f32 := Host.absf main_arg2
  let main_cst_2 : FVec F S_ .f32 := constant S_ .f32 0x7F800000#32
  let main_v10 : FVec F S32x2048x64 .f32 := broadcastInDim S32x2048x64 ![] bcast_S_S32x2048x64 main_cst_2
  let main_v11 : IVec S32x2048x64 1 := cmpf .olt main_v9 main_v10
  let main_c_3 : IVec S_ 1 := constantI S_ 1 1#1
  let main_v12 : IVec S_ 1 := (fun x v => Host.reduce IntOp.andi x v reducesTo_S32x2048x64_S_d0_1_2 h_S_) main_v11 main_c_3
  let main_v13 : IVec S_ 1 := andi main_v8 main_v12
  main_v13
-- ==== Kernel.lean ====
abbrev S32x2048x64 : Shape := ⟨3, ![32, 2048, 64]⟩
abbrev S1x512x64 : Shape := ⟨3, ![1, 512, 64]⟩
abbrev S1x2048x64 : Shape := ⟨3, ![1, 2048, 64]⟩
abbrev S512x64 : Shape := ⟨2, ![512, 64]⟩
abbrev S2048x64 : Shape := ⟨2, ![2048, 64]⟩
abbrev S64x2048 : Shape := ⟨2, ![64, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x2048x64, .f32⟩
  | .hbm, ⟨3, _⟩ => ⟨S32x2048x64, .bf16⟩
  | .hbm, ⟨4, _⟩ => ⟨S32x2048x64, .bf16⟩
  | .hbm, ⟨5, _⟩ => ⟨S32x2048x64, .bf16⟩
  | .hbm, ⟨6, _⟩ => ⟨S32x2048x64, .f32⟩
  | .local _ .vmem, ⟨0, _⟩ => ⟨S1x512x64, .bf16⟩
  | .local _ .vmem, ⟨1, _⟩ => ⟨S1x512x64, .bf16⟩
  | .local _ .vmem, ⟨2, _⟩ => ⟨S1x2048x64, .bf16⟩
  | .local _ .vmem, ⟨3, _⟩ => ⟨S1x2048x64, .bf16⟩
  | .local _ .vmem, ⟨4, _⟩ => ⟨S1x2048x64, .bf16⟩
  | .local _ .vmem, ⟨5, _⟩ => ⟨S1x2048x64, .bf16⟩
  | .local _ .vmem, ⟨6, _⟩ => ⟨S1x512x64, .f32⟩
  | .local _ .vmem, ⟨7, _⟩ => ⟨S1x512x64, .f32⟩
  | _, _ => ⟨S32x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  transposes_S2048x64_p1_0_S64x2048 : S2048x64.Transposes [1, 0] S64x2048
  reduces_S512x2048_S512 : S512x2048.Reduces [1] S512
  shapeCasts_S512_S512x1 : S512.ShapeCasts S512x1
  broadcasts_S512x1_S512x2048 : S512x1.Broadcasts S512x2048
  broadcasts_S512x1_S512x64 : S512x1.Broadcasts S512x64
  shapeCasts_S512x64_S1x512x64 : S512x64.ShapeCasts S1x512x64
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S32x2048x64.size a
  hwx0_0 : ∀ i : grid0.Coords, EltTy.bits .bf16 = 32 ∨ (Rect.block (s := S32x2048x64) S1x512x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .bf16 = 32 ∨ (Rect.block (s := S32x2048x64) S1x2048x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .bf16 = 32 ∨ (Rect.block (s := S32x2048x64) S1x2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S32x2048x64.size a
  hwx0_3 : ∀ i : grid0.Coords, EltTy.bits .f32 = 32 ∨ (Rect.block (s := S32x2048x64) S1x512x64.size (cc0_transform_3 i) (hinb0_3 i)).WholeWords (EltTy.packing .f32)

variable [Facts₀]

def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x2048x64 : Shape := ⟨3, ![32, 2048, 64]⟩
abbrev S32x2048x2048 : Shape := ⟨3, ![32, 2048, 2048]⟩
abbrev S_ : Shape := ⟨0, ![]⟩
abbrev S32x2048 : Shape := ⟨2, ![32, 2048]⟩
abbrev S32x2048x1 : Shape := ⟨3, ![32, 2048, 1]⟩

abbrev nBuf : Space → Nat
  | .hbm => 23
  | .vmem => 0
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x2048x64, .f32⟩
  | .hbm, ⟨3, _⟩ => ⟨S32x2048x2048, .f32⟩
  | .hbm, ⟨4, _⟩ => ⟨S_, .f32⟩
  | .hbm, ⟨5, _⟩ => ⟨S_, .f32⟩
  | .hbm, ⟨6, _⟩ => ⟨S32x2048x2048, .f32⟩
  | .hbm, ⟨7, _⟩ => ⟨S32x2048x2048, .f32⟩
  | .hbm, ⟨8, _⟩ => ⟨S_, .f32⟩
  | .hbm, ⟨9, _⟩ => ⟨S32x2048, .f32⟩
  | .hbm, ⟨10, _⟩ => ⟨S_, .f32⟩
  | .hbm, ⟨11, _⟩ => ⟨S32x2048, .f32⟩
  | .hbm, ⟨12, _⟩ => ⟨S32x2048, .f32⟩
  | .hbm, ⟨13, _⟩ => ⟨S32x2048x1, .f32⟩
  | .hbm, ⟨14, _⟩ => ⟨S32x2048x2048, .f32⟩
  | .hbm, ⟨15, _⟩ => ⟨S32x2048x2048, .f32⟩
  | .hbm, ⟨16, _⟩ => ⟨S32x2048x2048, .f32⟩
  | .hbm, ⟨17, _⟩ => ⟨S_, .f32⟩
  | .hbm, ⟨18, _⟩ => ⟨S32x2048, .f32⟩
  | .hbm, ⟨19, _⟩ => ⟨S32x2048x1, .f32⟩
  | .hbm, ⟨20, _⟩ => ⟨S32x2048x2048, .f32⟩
  | .hbm, ⟨21, _⟩ => ⟨S32x2048x2048, .f32⟩
  | .hbm, ⟨22, _⟩ => ⟨S32x2048x64, .f32⟩
  | _, _ => ⟨S32x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  bcast_S_S32x2048x2048 : S_.BroadcastsInDim S32x2048x2048 (![] : Fin 0 → Fin S32x2048x2048.rank)
  reducesTo_S32x2048x2048_S32x2048_d2 : S32x2048x2048.ReducesTo [2] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x2048_0_1_2 : S32x2048x1.BroadcastsInDim S32x2048x2048 (![0, 1, 2] : Fin 3 → Fin S32x2048x2048.rank)
  dot_S32x2048x64_S32x2048x64_S32x2048x2048_2_2_1_1_0_0_wf : DotDims.WF S32x2048x64 S32x2048x64 S32x2048x2048 [2] [2] [1] [1] [0] [0]
  dot_S32x2048x2048_S32x2048x64_S32x2048x64_2_1_1_2_0_0_wf : DotDims.WF S32x2048x2048 S32x2048x64 S32x2048x64 [2] [1] [1] [2] [0] [0]

variable [Facts₀]

def dot_S32x2048x64_S32x2048x64_S32x2048x2048_2_2_1_1_0_0 : DotDims S32x2048x64 S32x2048x64 S32x2048x2048 where
  lhsContracting := [2]
  rhsContracting := [2]
  lhsNonContracting := [1]
  rhsNonContracting := [1]
  lhsBatch := [0]
  rhsBatch := [0]
  wf := dot_S32x2048x64_S32x2048x64_S32x2048x2048_2_2_1_1_0_0_wf
def dot_S32x2048x2048_S32x2048x64_S32x2048x64_2_1_1_2_0_0 : DotDims S32x2048x2048 S32x2048x64 S32x2048x64 where
  lhsContracting := [2]
  rhsContracting := [1]
  lhsNonContracting := [1]
  rhsNonContracting := [2]
  lhsBatch := [0]
  rhsBatch := [0]
  wf := dot_S32x2048x2048_S32x2048x64_S32x2048x64_2_1_1_2_0_0_wf

class Facts : Prop extends Facts₀ where

variable [Facts]
-- ==== Proof.AttnLaws.lean ====
/-
  Scaled dot-product attention on the extended reals: the two spellings of one row, and the laws joining them.

  For one query row with scores S k (k over the keys) and one output column with values V k, attention is
      out = Σ_k softmax(S)_k · V k,   softmax(S)_k = exp (S k - M) / Σ_k' exp (S k' - M),   M = max_k S k.
  It can be spelt with the division taken once, after the weighted sum,
      (Σ_k exp (S k - M) · V k) / (Σ_k exp (S k - M)),
  or with every weight divided first,
      Σ_k (exp (S k - M) / (0 + Σ_k' exp (S k' - M))) · V k.
  The two agree when every S k and V k is a real number: then M is real (it lies between one score and a real
  bound of all of them), every exponential is a positive real, their sum L is a positive real, and
  (Σ e_k v_k) · (1/L) = Σ (e_k · (1/L)) · v_k is distributivity in ℝ. At an infinity the law fails, so the
  hypotheses are needed.

  The scores themselves are a dot product scaled by 1/√64 = 1/8, spelt either as Σ_d (q_d · ⅛) · k_d — the factor
  ⅛ an exact binary fraction — or as (Σ_d q_d · k_d) / √64; on real numbers these agree too.
-/
import Idealize.ShloMosaic.PureOps.Ideal
import Idealize.ShloMosaic.PureOps.Ideal.Laws

noncomputable section

namespace Cert.Attn

open Idealize.ShloMosaic

/-! ## Real-valued extended reals -/

/-- An extended real that is a real number. -/
def IsReal (x : EReal) : Prop := ∃ r : ℝ, x = (r : EReal)

/-- The real numbers are the extended reals other than the two infinities. -/
theorem isReal_iff {x : EReal} : IsReal x ↔ x ≠ ⊤ ∧ x ≠ ⊥ := by
  constructor
  · rintro ⟨r, rfl⟩
    exact ⟨EReal.coe_ne_top r, EReal.coe_ne_bot r⟩
  · rintro ⟨h1, h2⟩
    exact ⟨x.toReal, (EReal.coe_toReal h1 h2).symm⟩

/-- The inclusion of ℝ in the extended reals commutes with finite sums. -/
theorem coe_sum {ι : Type} (t : Finset ι) (f : ι → ℝ) :
    ((∑ i ∈ t, f i : ℝ) : EReal) = ∑ i ∈ t, (f i : EReal) := by
  classical
  induction t using Finset.induction_on with
  | empty => simp
  | insert a s ha ih => rw [Finset.sum_insert ha, Finset.sum_insert ha, EReal.coe_add, ih]

/-! ## The constants -/

/-- The bf16 pattern 0x3E00 is 2⁻³ = 1/8. -/
theorem ofBits_eighth : Ideal.ofBits .bf16 0x3E00#16 = ((1 / 8 : ℝ) : EReal) := by
  simp [Ideal.ofBits, Ideal.ieee, -EReal.coe_mul]; norm_num

/-- The f32 pattern 0x42800000 is 2⁶ = 64. -/
theorem ofBits_64 : Ideal.ofBits .f32 0x42800000#32 = ((64 : ℝ) : EReal) := by
  simp [Ideal.ofBits, Ideal.ieee, -EReal.coe_mul]; norm_num

/-- The f32 pattern 0xFF800000 is −∞. -/
theorem ofBits_neg_inf : Ideal.ofBits .f32 0xFF800000#32 = (⊥ : EReal) := by
  simp [Ideal.ofBits, Ideal.ieee]

/-- √64 = 8. -/
theorem sqrt_64 : Ideal.sqrt ((64 : ℝ) : EReal) = ((8 : ℝ) : EReal) := by
  rw [Ideal.sqrt_coe, if_neg (by norm_num)]
  congr 1
  rw [show (64 : ℝ) = 8 ^ 2 by norm_num]
  exact Real.sqrt_sq (by norm_num)

/-! ## The scores -/

/-- A scaled dot product of real vectors is a real number. -/
theorem score_isReal {n : ℕ} (Q K : Fin n → EReal) (hQ : ∀ d, IsReal (Q d)) (hK : ∀ d, IsReal (K d)) :
    IsReal (∑ d, (Q d * Ideal.ofBits .bf16 0x3E00#16) * K d) := by
  choose q hq using hQ
  choose k hk using hK
  refine ⟨∑ d, (q d * (1 / 8)) * k d, ?_⟩
  rw [coe_sum]
  refine Finset.sum_congr rfl fun d _ => ?_
  rw [hq d, hk d, ofBits_eighth, EReal.coe_mul, EReal.coe_mul]

/-- Dividing a dot product of real vectors by √64 is scaling the first vector by ⅛ before the product. -/
theorem score_eq {n : ℕ} (Q K : Fin n → EReal) (hQ : ∀ d, IsReal (Q d)) (hK : ∀ d, IsReal (K d)) :
    Ideal.div (∑ d, Q d * K d) (Ideal.sqrt (Ideal.ofBits .f32 0x42800000#32))
      = ∑ d, (Q d * Ideal.ofBits .bf16 0x3E00#16) * K d := by
  choose q hq using hQ
  choose k hk using hK
  have h1 : ∑ d, Q d * K d = ((∑ d, q d * k d : ℝ) : EReal) := by
    rw [coe_sum]
    exact Finset.sum_congr rfl fun d _ => by rw [hq d, hk d, EReal.coe_mul]
  have h2 : ∑ d, (Q d * Ideal.ofBits .bf16 0x3E00#16) * K d = ((∑ d, (q d * (1 / 8)) * k d : ℝ) : EReal) := by
    rw [coe_sum]
    exact Finset.sum_congr rfl fun d _ => by rw [hq d, hk d, ofBits_eighth, EReal.coe_mul, EReal.coe_mul]
  rw [h1, h2, ofBits_64, sqrt_64, Ideal.div_coe (by norm_num : (8 : ℝ) ≠ 0), ← EReal.coe_mul]
  congr 1
  rw [Finset.sum_mul]
  exact Finset.sum_congr rfl fun d _ => by ring

/-! ## The row maximum -/

/-- The maximum of a row, folded from −∞ (given by its bit pattern). -/
def rowMax {n : ℕ} (S : Fin n → EReal) : EReal :=
  (Finset.univ : Finset (Fin n)).fold max (Ideal.ofBits .f32 0xFF800000#32) S

/-- Taking the maximum with −∞ once more changes nothing. -/
theorem max_neg_inf_rowMax {n : ℕ} (S : Fin n → EReal) :
    max (Ideal.ofBits .f32 0xFF800000#32) (rowMax S) = rowMax S := by
  rw [ofBits_neg_inf]
  exact max_eq_right bot_le

/-- The maximum of a nonempty row of real numbers is a real number: it is at least one of them, and at most a real
    bound of them all. -/
theorem rowMax_isReal {n : ℕ} (S : Fin n → EReal) (k0 : Fin n) (hS : ∀ k, IsReal (S k)) : IsReal (rowMax S) := by
  choose s hs using hS
  rw [isReal_iff]
  unfold rowMax
  rw [ofBits_neg_inf]
  constructor
  · obtain ⟨B, hB⟩ := Finset.exists_le (Finset.univ.image s)
    have hle : (Finset.univ : Finset (Fin n)).fold max (⊥ : EReal) S ≤ (B : EReal) := by
      rw [Finset.fold_max_le]
      refine ⟨bot_le, fun k _ => ?_⟩
      rw [hs k]
      exact EReal.coe_le_coe_iff.mpr (hB _ (Finset.mem_image_of_mem _ (Finset.mem_univ k)))
    exact ne_top_of_le_ne_top (EReal.coe_ne_top B) hle
  · have hge : S k0 ≤ (Finset.univ : Finset (Fin n)).fold max (⊥ : EReal) S := by
      rw [Finset.le_fold_max]
      exact Or.inr ⟨k0, Finset.mem_univ _, le_rfl⟩
    intro h
    rw [h, hs k0] at hge
    exact absurd hge (not_le.mpr (EReal.bot_lt_coe _))

/-! ## One output entry -/

/-- One entry of the attention output, the division taken once: the exponentials of the scores less their maximum,
    weighted by the values and summed, over the sum of the exponentials. -/
def attnOut {n : ℕ} (S V : Fin n → EReal) : EReal :=
  Ideal.div (∑ k, Ideal.exp (S k - rowMax S) * V k) (∑ k, Ideal.exp (S k - rowMax S))

/-- Dividing every weight by the sum of the exponentials (started from the pattern of 0) before the weighted sum gives
    the same entry, for a nonempty row of real scores and real values. -/
theorem softmax_dot_eq {n : ℕ} (S V : Fin n → EReal) (k0 : Fin n) (hS : ∀ k, IsReal (S k)) (hV : ∀ k, IsReal (V k)) :
    ∑ k, Ideal.div (Ideal.exp (S k - rowMax S))
        (Ideal.ofBits .f32 0x00000000#32 + ∑ k', Ideal.exp (S k' - rowMax S)) * V k
      = attnOut S V := by
  obtain ⟨μ, hμ⟩ := rowMax_isReal S k0 hS
  choose s hs using hS
  choose v hv using hV
  unfold attnOut
  rw [hμ, Ideal.ofBits_zero_f32, zero_add]
  have he : ∀ k, Ideal.exp (S k - (μ : EReal)) = ((Real.exp (s k - μ) : ℝ) : EReal) := fun k => by
    rw [hs k, ← EReal.coe_sub, Ideal.exp_coe]
  have hL : ∑ k, Ideal.exp (S k - (μ : EReal)) = ((∑ k, Real.exp (s k - μ) : ℝ) : EReal) := by
    rw [coe_sum]
    exact Finset.sum_congr rfl fun k _ => he k
  have hpos : (0 : ℝ) < ∑ k, Real.exp (s k - μ) :=
    Finset.sum_pos (fun k _ => Real.exp_pos _) ⟨k0, Finset.mem_univ _⟩
  have hN : ∑ k, Ideal.exp (S k - (μ : EReal)) * V k = ((∑ k, Real.exp (s k - μ) * v k : ℝ) : EReal) := by
    rw [coe_sum]
    exact Finset.sum_congr rfl fun k _ => by rw [he k, hv k, EReal.coe_mul]
  rw [hN, hL, Ideal.div_coe hpos.ne', ← EReal.coe_mul]
  have hlhs : ∀ k, Ideal.div (Ideal.exp (S k - (μ : EReal))) ((∑ k, Real.exp (s k - μ) : ℝ) : EReal) * V k
      = ((Real.exp (s k - μ) * (1 / ∑ k, Real.exp (s k - μ)) * v k : ℝ) : EReal) := fun k => by
    rw [Ideal.div_coe hpos.ne', he k, hv k, ← EReal.coe_mul, ← EReal.coe_mul]
  rw [Finset.sum_congr rfl fun k _ => hlhs k, ← coe_sum]
  congr 1
  rw [Finset.sum_mul]
  exact Finset.sum_congr rfl fun k _ => by ring

end Cert.Attn

end
-- ==== Proof.LibFinite.lean ====
/-
  Finiteness read back from a printed "all entries finite" test, at the ideal float values
  (every float an extended real). The test of one array x is the conjunction over all indices of
  |x i| < +∞, where |x| is max x (-x) and +∞ is the value of the IEEE pattern 0x7F800000; it
  is printed as a reduction by "and" of the array of comparison bits, from the constant 1, into a
  result with a single index.

  Contents.
  * one element: |x| < +∞ (as a comparison bit equal to 1) makes x a real number;
  * one array: a reduction by "and" over all axes of those bits that is 1 makes every entry real;
  * the empty-rank shape has one index.
-/
import Idealize.ShloMosaic.Lib.ReduceAll
import Idealize.ShloMosaic.PureOps.Ideal
import proofs.«128157_j9543417332177_2_alg».proof.Proof.AttnLaws

noncomputable section

namespace Cert.Finite

open Idealize.ShloMosaic
open Cert.Attn

/-- The IEEE single-precision pattern 0x7F800000 denotes +∞. -/
theorem ofBits_inf : Ideal.ofBits .f32 0x7F800000#32 = (⊤ : EReal) := by
  simp [Ideal.ofBits, Ideal.ieee]

/-- For an extended real x, max x (-x) < ⊤ exactly when x is neither infinity. -/
theorem abs_lt_top_iff (x : EReal) : max x (-x) < ⊤ ↔ x ≠ ⊤ ∧ x ≠ ⊥ := by
  rw [max_lt_iff, lt_top_iff_ne_top, lt_top_iff_ne_top]
  constructor
  · rintro ⟨h1, h2⟩
    exact ⟨h1, fun hb => h2 (by rw [hb]; rfl)⟩
  · rintro ⟨h1, h2⟩
    exact ⟨h1, fun ht => h2 (by simpa using ht)⟩

/-- One element: if the comparison bit of |x| < +∞ is 1 then x is a real number. Here |x| is the
    host's absolute value max x (-x) and +∞ is given by its bit pattern. -/
theorem isReal_of_abs_lt_inf (x : Ideal .f32)
    (h : FloatOps.cmpf (F := Ideal) .olt (FloatOps.hostAbsf (F := Ideal) x)
        (FloatOps.ofBits (F := Ideal) .f32 0x7F800000#32) = 1#1) : IsReal x := by
  have h' : Ideal.cmp .olt (max (x : EReal) (-(x : EReal))) (Ideal.ofBits .f32 0x7F800000#32) = 1#1 := h
  rw [ofBits_inf] at h'
  unfold Ideal.cmp at h'
  have hlt : max (x : EReal) (-(x : EReal)) < ⊤ := by
    by_contra hn
    simp [hn] at h'
  exact isReal_iff.mpr ((abs_lt_top_iff x).mp hlt)

/-- One array: if the reduction by "and" over all axes (into a result with one index) of the bits
    |x i| < inf i is 1, where every inf i is the pattern of +∞, then every entry of x is real. -/
theorem isReal_of_all {s t u : Shape} {axes : List (Fin s.rank)} [Subsingleton t.Idx]
    (x inf : FVec Ideal s .f32) (hinf : ∀ i, inf i = FloatOps.ofBits (F := Ideal) .f32 0x7F800000#32)
    (init : IVec u 1) (h : s.ReducesTo axes t) (hu : 0 < u.numel) (j : t.Idx)
    (e : Host.reduce IntOp.andi (cmpf (F := Ideal) .olt (Host.absf (F := Ideal) x) inf) init h hu j = 1#1)
    (i : s.Idx) : IsReal (x i) := by
  have hi := Host.reduce_andi_all _ init h hu j e i
  refine isReal_of_abs_lt_inf (x i) ?_
  rw [← hinf i]
  exact hi

/-- The shape of rank zero has exactly one index. -/
instance subsingleton_idx_rank0 : Subsingleton (Shape.Idx ⟨0, ![]⟩) :=
  ⟨fun a b => funext fun d => d.elim0⟩

end Cert.Finite

end
-- ==== Proof.InputsReal.lean ====
/-
  The precondition makes every entry of the three argument arrays a real number.

  The precondition is the conjunction, over the three arrays, of "every entry x satisfies |x| < +∞": each conjunct is
  a reduction by "and", over all three axes, of the comparison bits |x i| < inf i, where inf is the pattern of +∞
  broadcast to the array's shape. A conjunction that is 1 has both parts 1, and a reduction by "and" that is 1 met only
  1s; an extended real with |x| < +∞ is neither infinity.
-/
import proofs.«128157_j9543417332177_2_alg».proof.Proof.Gen.Pre_finite_inputs
import proofs.«128157_j9543417332177_2_alg».proof.Proof.LibFinite
import Idealize.ShloMosaic.Lib.Pipeline.Value
import Idealize.ShloMosaic.Lib.ValueIdx

noncomputable section

namespace Cert.Attn

open Idealize.ShloMosaic Cert.Pre_finite_inputs Cert.Pre_finite_inputs.Facts Cert.Finite

/-- The pattern of +∞, broadcast from the one-index shape to the arrays' shape, reads that pattern at every index. -/
theorem inf_apply (i : S32x2048x64.Idx) :
    broadcastInDim S32x2048x64 ![] bcast_S_S32x2048x64 (constant (F := Ideal) S_ .f32 0x7F800000#32) i
      = FloatOps.ofBits (F := Ideal) .f32 0x7F800000#32 :=
  broadcastInDim_apply _ bcast_S_S32x2048x64 (constant (F := Ideal) S_ .f32 0x7F800000#32) i (fun a => a.elim0)
    (fun a => a.elim0)

/-- Under the precondition every entry of each of the three arrays is a real number. -/
theorem real_of_pre (x0 x1 x2 : FVec Ideal S32x2048x64 .f32)
    (h : Cert.Pre_finite_inputs.fn (F := Ideal) x0 x1 x2 = fun _ => 1#1) :
    (∀ i, IsReal (x0 i)) ∧ (∀ i, IsReal (x1 i)) ∧ (∀ i, IsReal (x2 i)) := by
  have h0 := congrFun h ValueIdx.ix0
  dsimp only [Cert.Pre_finite_inputs.fn] at h0
  obtain ⟨h01, h2⟩ := IntOp.andi_eq_one.mp h0
  obtain ⟨h0', h1⟩ := IntOp.andi_eq_one.mp h01
  exact ⟨isReal_of_all x0 _ inf_apply _ _ _ _ h0', isReal_of_all x1 _ inf_apply _ _ _ _ h1,
    isReal_of_all x2 _ inf_apply _ _ _ _ h2⟩

end Cert.Attn

end
-- ==== Proof.LibColumns.lean ====
/-
  Column vectors read at coordinates: the three layout steps of a "keepdims" row reduction.

  A reduction over the last axis of an `[a, n]` array gives a vector `[a]`; kept as a COLUMN it is cast to `[a, 1]`,
  and a column is then either broadcast along a new second axis to `[a, b]` (every entry of row `p` is the column's
  entry `p`) or transposed to the row `[1, a]`. Each lemma reads one of these at an index written with coordinates.
-/
import Idealize.ShloMosaic.Lib.Pipeline.Value
import Idealize.ShloMosaic.Lib.ValueIdx
import Idealize.ShloMosaic.Lib.ValueLayout

namespace Cert.Lib.Columns

open Idealize.ShloMosaic Idealize.ShloMosaic.ValueIdx

variable {α : Type}

/-- A vector `[a]` cast to the column `[a, 1]` reads, at `(p, z)`, the vector at `p`, whatever the unit coordinate `z`:
    both indices have row-major position `p`. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` transposed to the row `[1, a]` reads, at `(z, p)`, the column's entry `p`. -/
theorem transpose_a1_1a_apply {a : ℕ} (x : (⟨2, ![a, 1]⟩ : Shape).Idx → α)
    (h : (⟨2, ![a, 1]⟩ : Shape).Transposes [1, 0] ⟨2, ![1, a]⟩) (z : Fin 1) (p : Fin a) :
    transpose ⟨2, ![1, a]⟩ [1, 0] x h (ix2 z p) = x (ix2 p z) :=
  transpose_ix2_apply x h z p

end Cert.Lib.Columns
-- ==== Proof.Payload.lean ====
/-
  What the kernel body computes for one block, read at an index.

  The body is handed a block of 512 query rows q : [1, 512, 64] and, for the same batch entry, all 2048 key rows
  k : [1, 2048, 64] and value rows v : [1, 2048, 64]. With c the constant ⅛ it forms
      s[r, j]  = Σ_e (q[r, e] · c) · k[j, e]                (a matrix product with the transposed keys),
      m[r]     = max_j s[r, j]                               (a row maximum, from −∞),
      p[r, j]  = exp (s[r, j] − m[r]),
      l[r]     = Σ_j p[r, j],
      o[r, d]  = (Σ_j p[r, j] · v[j, d]) / l[r]             (a second matrix product, then one division per entry).
  Read at (r, d), o is the attention entry of AttnLaws, the division taken once, over the row of scores s[r, ·] and
  the column of values v[·, d]. Every layout step on the way (dropping or adding the leading unit axis, the transpose,
  a row vector kept as a column and broadcast along the row) only renames indices.
-/
import proofs.«128157_j9543417332177_2_alg».proof.Proof.Gen.KernelIdeal.Skeleton
import proofs.«128157_j9543417332177_2_alg».proof.Proof.AttnLaws
import proofs.«128157_j9543417332177_2_alg».proof.Proof.LibColumns
import Idealize.ShloMosaic.Lib.Pipeline.Value
import Idealize.ShloMosaic.Lib.ValueIdx
import Idealize.ShloMosaic.Lib.ValueLayout
import Idealize.ShloMosaic.PureOps.Ideal.Laws

noncomputable section

namespace Cert.Attn.Block

open Idealize.ShloMosaic Idealize.ShloMosaic.ValueIdx Cert.KernelIdeal Cert.KernelIdeal.Gen Cert.Lib.Columns Cert.Attn

/-- The dimension numbers of the product of the scaled queries [512, 64] with the transposed keys [64, 2048]. -/
abbrev QK := dot_S512x64_S64x2048_S512x2048_1_0_0_1_n_n
/-- The dimension numbers of the product of the exponentials [512, 2048] with the values [2048, 64]. -/
abbrev PV := dot_S512x2048_S2048x64_S512x64_1_0_0_1_n_n

/-! ## The operand indices of the two products: rows × contraction, contraction × columns -/

theorem qk_lhs_0 (i : S512x2048.Idx) (q : QK.contr.Idx) : (QK.lhsIdx i q 0).val = (i 0).val := by
  unfold DotDims.lhsIdx
  rw [dif_neg (show ¬(0 : Fin S512x64.rank) ∈ QK.lhsBatch by decide),
    dif_pos (show (0 : Fin S512x64.rank) ∈ QK.lhsNonContracting by decide)]
  rfl
theorem qk_lhs_1 (i : S512x2048.Idx) (q : QK.contr.Idx) : (QK.lhsIdx i q 1).val = (q ⟨0, by decide⟩).val :=
  QK.lhsIdx_val_of_single rfl i q
theorem qk_rhs_0 (i : S512x2048.Idx) (q : QK.contr.Idx) : (QK.rhsIdx i q 0).val = (q ⟨0, by decide⟩).val :=
  QK.rhsIdx_val_of_single rfl i q
theorem qk_rhs_1 (i : S512x2048.Idx) (q : QK.contr.Idx) : (QK.rhsIdx i q 1).val = (i 1).val := by
  unfold DotDims.rhsIdx
  rw [dif_neg (show ¬(1 : Fin S64x2048.rank) ∈ QK.rhsBatch by decide),
    dif_pos (show (1 : Fin S64x2048.rank) ∈ QK.rhsNonContracting by decide)]
  rfl

theorem pv_lhs_0 (i : S512x64.Idx) (q : PV.contr.Idx) : (PV.lhsIdx i q 0).val = (i 0).val := by
  unfold DotDims.lhsIdx
  rw [dif_neg (show ¬(0 : Fin S512x2048.rank) ∈ PV.lhsBatch by decide),
    dif_pos (show (0 : Fin S512x2048.rank) ∈ PV.lhsNonContracting by decide)]
  rfl
theorem pv_lhs_1 (i : S512x64.Idx) (q : PV.contr.Idx) : (PV.lhsIdx i q 1).val = (q ⟨0, by decide⟩).val :=
  PV.lhsIdx_val_of_single rfl i q
theorem pv_rhs_0 (i : S512x64.Idx) (q : PV.contr.Idx) : (PV.rhsIdx i q 0).val = (q ⟨0, by decide⟩).val :=
  PV.rhsIdx_val_of_single rfl i q
theorem pv_rhs_1 (i : S512x64.Idx) (q : PV.contr.Idx) : (PV.rhsIdx i q 1).val = (i 1).val := by
  unfold DotDims.rhsIdx
  rw [dif_neg (show ¬(1 : Fin S2048x64.rank) ∈ PV.rhsBatch by decide),
    dif_pos (show (1 : Fin S2048x64.rank) ∈ PV.rhsNonContracting by decide)]
  rfl

/-- The product of a [512, 64] matrix with a [64, 2048] matrix into a zero accumulator, at (r, j): the sum over the 64
    contraction coordinates of the products of the row's and the column's entries. -/
theorem qk_apply (A : FVec Ideal S512x64 .bf16) (B : FVec Ideal S64x2048 .bf16) (r : Fin 512) (j : Fin 2048) :
    matmul QK none A B (constant (F := Ideal) S512x2048 .f32 0x00000000#32) (ix2 r j)
      = ∑ e : Fin 64, A (ix2 r e) * B (ix2 e j) := by
  show FloatOps.matmul QK none A B (constant (F := Ideal) S512x2048 .f32 0x00000000#32) (ix2 r j) = _
  rw [Ideal.matmul_constant_zero_apply, ← Equiv.sum_comp (contrEquiv1 QK 64 rfl rfl).symm]
  refine Finset.sum_congr rfl fun e _ => ?_
  have he := contrEquiv1_symm_val QK 64 rfl rfl e
  have el : QK.lhsIdx (ix2 r j) ((contrEquiv1 QK 64 rfl rfl).symm e) = ix2 r e := funext fun a => Fin.ext (by
    match a with
    | ⟨0, _⟩ => exact qk_lhs_0 _ _
    | ⟨1, _⟩ => exact (qk_lhs_1 _ _).trans he)
  have er : QK.rhsIdx (ix2 r j) ((contrEquiv1 QK 64 rfl rfl).symm e) = ix2 e j := funext fun a => Fin.ext (by
    match a with
    | ⟨0, _⟩ => exact (qk_rhs_0 _ _).trans he
    | ⟨1, _⟩ => exact qk_rhs_1 _ _)
  rw [el, er]

/-- The product of a [512, 2048] matrix with a [2048, 64] matrix into a zero accumulator, at (r, d): the sum over the
    2048 contraction coordinates. -/
theorem pv_apply (A : FVec Ideal S512x2048 .bf16) (B : FVec Ideal S2048x64 .bf16) (r : Fin 512) (d : Fin 64) :
    matmul PV none A B (constant (F := Ideal) S512x64 .f32 0x00000000#32) (ix2 r d)
      = ∑ j : Fin 2048, A (ix2 r j) * B (ix2 j d) := by
  show FloatOps.matmul PV none A B (constant (F := Ideal) S512x64 .f32 0x00000000#32) (ix2 r d) = _
  rw [Ideal.matmul_constant_zero_apply, ← Equiv.sum_comp (contrEquiv1 PV 2048 rfl rfl).symm]
  refine Finset.sum_congr rfl fun j _ => ?_
  have hj := contrEquiv1_symm_val PV 2048 rfl rfl j
  have el : PV.lhsIdx (ix2 r d) ((contrEquiv1 PV 2048 rfl rfl).symm j) = ix2 r j := funext fun a => Fin.ext (by
    match a with
    | ⟨0, _⟩ => exact pv_lhs_0 _ _
    | ⟨1, _⟩ => exact (pv_lhs_1 _ _).trans hj)
  have er : PV.rhsIdx (ix2 r d) ((contrEquiv1 PV 2048 rfl rfl).symm j) = ix2 j d := funext fun a => Fin.ext (by
    match a with
    | ⟨0, _⟩ => exact (pv_rhs_0 _ _).trans hj
    | ⟨1, _⟩ => exact pv_rhs_1 _ _)
  rw [el, er]

/-! ## The two row reductions of a [512, 2048] matrix -/

/-- The sum along the rows, at row r: the sum of the row's 2048 entries. -/
theorem rowSum_apply (X : FVec Ideal S512x2048 .f32) (h : S512x2048.Reduces [1] S512) (hφ : FKind.Formats .f32)
    (hacc : (0x00000000#32 : BitVec 32) = FKind.add.neutral .f32 hφ) (r : Fin 512) :
    multiReduction .add [1] S512 X 0x00000000#32 h hφ hacc (ix1 r) = ∑ j : Fin 2048, X (ix2 r j) :=
  (Ideal.multiReduction_add_single X _ h hφ hacc (ix1 r)).trans
    (Finset.sum_congr rfl fun j _ => congrArg X (funext fun a => Fin.ext (by
      match a with
      | ⟨0, _⟩ => rfl
      | ⟨1, _⟩ => rfl)))

/-- The maximum along the rows, from −∞, at row r: the maximum of the row's 2048 entries. -/
theorem rowMax_apply (X : FVec Ideal S512x2048 .f32) (h : S512x2048.Reduces [1] S512) (hφ : FKind.Formats .f32)
    (hacc : (0xFF800000#32 : BitVec 32) = FKind.maximumf.neutral .f32 hφ) (r : Fin 512) :
    multiReduction .maximumf [1] S512 X 0xFF800000#32 h hφ hacc (ix1 r) = rowMax (fun j : Fin 2048 => X (ix2 r j)) := by
  unfold rowMax
  exact (Ideal.multiReduction_maximumf_single X _ h hφ hacc (ix1 r)).trans
    (congrArg ((Finset.univ : Finset (Fin 2048)).fold max (Ideal.ofBits .f32 0xFF800000#32))
      (funext fun j => congrArg X (funext fun a => Fin.ext (by
        match a with
        | ⟨0, _⟩ => rfl
        | ⟨1, _⟩ => rfl))))

/-! ## From the scores to the output block -/

/-- The exponentials of the scores less their row maximum (the maximum kept as a column and broadcast along the row),
    at (r, j). -/
theorem expShift_apply (S : FVec Ideal S512x2048 .f32) (h : S512x2048.Reduces [1] S512) (hφ : FKind.Formats .f32)
    (hmax : (0xFF800000#32 : BitVec 32) = FKind.maximumf.neutral .f32 hφ) (hc : S512.ShapeCasts S512x1)
    (hb : S512x1.Broadcasts S512x2048) (r : Fin 512) (j : Fin 2048) :
    exp (subf S (broadcastTo S512x2048 (shapeCast S512x1 (multiReduction .maximumf [1] S512 S 0xFF800000#32 h hφ hmax) hc) hb))
        (ix2 r j)
      = Ideal.exp (S (ix2 r j) - rowMax (fun j' : Fin 2048 => S (ix2 r j'))) := by
  show Ideal.exp (S (ix2 r j)
      - broadcastTo S512x2048 (shapeCast S512x1 (multiReduction .maximumf [1] S512 S 0xFF800000#32 h hφ hmax) hc) hb (ix2 r j)) = _
  rw [broadcastTo_a1_ab_apply, shapeCast_a_a1_apply, rowMax_apply]

/-- The second product over the exponentials (their change of format is the identity), divided entry by entry by the
    row sums of the exponentials (kept as a column and broadcast along the row), at (r, d): the attention entry over
    the row of scores and the column of values. -/
theorem softmaxBlock_apply (S : FVec Ideal S512x2048 .f32) (W : FVec Ideal S2048x64 .bf16)
    (h : S512x2048.Reduces [1] S512) (hφ : FKind.Formats .f32)
    (hmax : (0xFF800000#32 : BitVec 32) = FKind.maximumf.neutral .f32 hφ)
    (hadd : (0x00000000#32 : BitVec 32) = FKind.add.neutral .f32 hφ) (hc : S512.ShapeCasts S512x1)
    (hb : S512x1.Broadcasts S512x2048) (hb' : S512x1.Broadcasts S512x64) (hbits : FTy.bits .bf16 < FTy.bits .f32)
    (r : Fin 512) (d : Fin 64) :
    divf
        (matmul PV none
          (truncf .bf16 (exp (subf S (broadcastTo S512x2048 (shapeCast S512x1 (multiReduction .maximumf [1] S512 S 0xFF800000#32 h hφ hmax) hc) hb))) hbits)
          W (constant (F := Ideal) S512x64 .f32 0x00000000#32))
        (broadcastTo S512x64 (shapeCast S512x1
          (multiReduction .add [1] S512
            (exp (subf S (broadcastTo S512x2048 (shapeCast S512x1 (multiReduction .maximumf [1] S512 S 0xFF800000#32 h hφ hmax) hc) hb)))
            0x00000000#32 h hφ hadd) hc) hb')
        (ix2 r d)
      = attnOut (fun j : Fin 2048 => S (ix2 r j)) (fun j : Fin 2048 => W (ix2 j d)) := by
  unfold attnOut
  show Ideal.div (matmul PV none _ W (constant (F := Ideal) S512x64 .f32 0x00000000#32) (ix2 r d))
      (broadcastTo S512x64 _ hb' (ix2 r d)) = _
  rw [pv_apply, broadcastTo_a1_ab_apply, shapeCast_a_a1_apply, rowSum_apply]
  refine congrArg₂ Ideal.div ?_ ?_
  · refine Finset.sum_congr rfl fun j _ => ?_
    exact congrArg (· * W (ix2 j d)) (expShift_apply S h hφ hmax hc hb r j)
  · exact Finset.sum_congr rfl fun j _ => expShift_apply S h hφ hmax hc hb r j

/-! ## The payload -/

/-- The block the body stores, at (u, r, d) (u the unit leading coordinate): the attention entry over the scores of
    query row r against every key row and the values' column d. -/
theorem pay_apply (x0 : FVec Ideal S1x512x64 .bf16) (x1 x2 : FVec Ideal S1x2048x64 .bf16) (u : Fin 1) (r : Fin 512)
    (d : Fin 64) :
    k0_pay1 (F := Ideal) x0 x1 x2 (ix3 u r d)
      = attnOut
          (fun j : Fin 2048 => ∑ e : Fin 64, (x0 (ix3 (0 : Fin 1) r e) * Ideal.ofBits .bf16 0x3E00#16) * x1 (ix3 (0 : Fin 1) j e))
          (fun j : Fin 2048 => x2 (ix3 (0 : Fin 1) j d)) := by
  unfold k0_pay1
  refine (shapeCast_ab_1ab_apply _ _ u r d).trans ?_
  refine (softmaxBlock_apply _ _ _ _ _ _ _ _ _ _ r d).trans ?_
  refine congrArg₂ attnOut (funext fun j => ?_) (funext fun j => ?_)
  · refine (qk_apply _ _ r j).trans (Finset.sum_congr rfl fun e _ => ?_)
    show (shapeCast S512x64 x0 _ (ix2 r e) * Ideal.ofBits .bf16 0x3E00#16) * transpose S64x2048 [1, 0] _ _ (ix2 e j) = _
    rw [shapeCast_1ab_ab_apply, transpose_ix2_apply, shapeCast_1ab_ab_apply]
  · exact shapeCast_1ab_ab_apply x2 _ j d

end Cert.Attn.Block

end
-- ==== Proof.Spec.lean ====
/-
  The attention output as ONE function of the three argument arrays.

  For queries Q, keys K and values V of shape [32, 2048, 64] the output entry at (b, q, d) — batch entry b, query row q,
  column d — is the attention entry of AttnLaws (the division taken once) over
      the scores  S j = Σ_e (Q[b, q, e] · ⅛) · K[b, j, e]   (j over the 2048 key rows of batch entry b), and
      the values  V[b, j, d].
  Both programs are shown to compute this function: the kernel block by block, as written; the reference, which scales
  the scores by a division and normalises the weights before the weighted sum, by the laws of AttnLaws.
-/
import proofs.«128157_j9543417332177_2_alg».proof.Proof.AttnLaws
import Idealize.ShloMosaic.Lib.ValueIdx

noncomputable section

namespace Cert.Attn

open Idealize.ShloMosaic Idealize.ShloMosaic.ValueIdx

/-- The shape of the three arguments and of the result. -/
abbrev SArr : Shape := ⟨3, ![32, 2048, 64]⟩

/-- The scores of query row q of batch entry b against every key row of that batch entry. -/
def scoreRow (Q K : SArr.Idx → EReal) (b : Fin 32) (q : Fin 2048) : Fin 2048 → EReal :=
  fun j => ∑ e : Fin 64, (Q (ix3 b q e) * Ideal.ofBits .bf16 0x3E00#16) * K (ix3 b j e)

/-- The output entry at coordinates (b, q, d). -/
def Gat (Q K V : SArr.Idx → EReal) (b : Fin 32) (q : Fin 2048) (d : Fin 64) : EReal :=
  attnOut (scoreRow Q K b q) (fun j : Fin 2048 => V (ix3 b j d))

/-- The output array. -/
def G (Q K V : SArr.Idx → EReal) : SArr.Idx → EReal :=
  fun i => Gat Q K V ⟨(i 0).val, (i 0).isLt⟩ ⟨(i 1).val, (i 1).isLt⟩ ⟨(i 2).val, (i 2).isLt⟩

theorem G_ix3 (Q K V : SArr.Idx → EReal) (b : Fin 32) (q : Fin 2048) (d : Fin 64) :
    G Q K V (ix3 b q d) = Gat Q K V b q d := rfl

end Cert.Attn

end
-- ==== Proof.KernelValue.lean ====
/-
  The kernel's result array is the attention output function of the three argument arrays.

  The launch runs the body once per grid point (b, qi), b over the 32 batch entries and qi over the 4 tiles of 512 query
  rows. At that point the body is handed rows qi·512 … qi·512 + 511 of batch entry b of the queries, and ALL 2048 rows
  of batch entry b of the keys and of the values (the arrays it reads are the arguments after a change of float
  format, which is the identity here), and what it stores is written back to rows qi·512 … qi·512 + 511 of batch entry
  b of the result. By Payload the entry stored at row r, column d of the block is the attention entry of query row
  qi·512 + r of batch entry b: the output function at (b, qi·512 + r, d). So what each point writes back is its block
  of ONE whole-array function, and since the 128 blocks cover the array (row q of batch entry b lies in the block of
  point (b, q / 512)), the array ends holding that function.
-/
import proofs.«128157_j9543417332177_2_alg».proof.Proof.Gen.KernelIdeal.Value
import proofs.«128157_j9543417332177_2_alg».proof.Proof.Payload
import proofs.«128157_j9543417332177_2_alg».proof.Proof.Spec
import Idealize.ShloMosaic.Lib.Pipeline.Value
import Idealize.ShloMosaic.Lib.StableHlo.Run
import Idealize.ShloMosaic.Lib.ValueIdx

set_option maxRecDepth 16384

noncomputable section

namespace Cert.Attn.Kernel

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.Attn

/-! ## One stored entry, from what the three loaded blocks hold -/

/-- If the query block holds rows o … o + 511 of batch entry b of Q, and the key and value blocks hold all rows of
    batch entry b of K and V, then the entry the body stores at y = (·, r, d) is the output function at the array index
    i = (b, o + r, d). -/
theorem block_entry (X0 : FVec Ideal S1x512x64 .bf16) (X1 X2 : FVec Ideal S1x2048x64 .bf16) (Q K V : SArr.Idx → EReal)
    (b : Fin 32) (o : ℕ) (ho : o + 512 ≤ 2048)
    (h0 : ∀ z : S1x512x64.Idx, X0 z = Q (ix3 b ⟨o + (z 1).val, by have h : (z 1).val < 512 := (z 1).isLt; omega⟩ ⟨(z 2).val, (z 2).isLt⟩))
    (h1 : ∀ z : S1x2048x64.Idx, X1 z = K (ix3 b ⟨(z 1).val, (z 1).isLt⟩ ⟨(z 2).val, (z 2).isLt⟩))
    (h2 : ∀ z : S1x2048x64.Idx, X2 z = V (ix3 b ⟨(z 1).val, (z 1).isLt⟩ ⟨(z 2).val, (z 2).isLt⟩))
    (y : S1x512x64.Idx) (i : SArr.Idx) (hi0 : (i 0).val = b.val) (hi1 : (i 1).val = o + (y 1).val)
    (hi2 : (i 2).val = (y 2).val) :
    k0_pay1 (F := Ideal) X0 X1 X2 y = G Q K V i := by
  obtain ⟨u, r, d, rfl⟩ : ∃ (u : Fin 1) (r : Fin 512) (d : Fin 64), y = ix3 u r d := ⟨y 0, y 1, y 2, eq_ix3 y⟩
  have hi : i = ix3 b ⟨o + r.val, by have h := r.isLt; omega⟩ d := by
    funext a; apply Fin.ext
    match a with
    | ⟨0, _⟩ => exact hi0
    | ⟨1, _⟩ => exact hi1
    | ⟨2, _⟩ => exact hi2
  rw [hi, G_ix3, Block.pay_apply]
  unfold Gat scoreRow
  refine congrArg₂ attnOut (funext fun j => Finset.sum_congr rfl fun e _ => ?_) (funext fun j => ?_)
  · rw [h0, h1]
  · rw [h2]

variable (m : (ℓ : Loc nD τ sig) → Buf (Elt Ideal) ℓ) (ρ : Dev nD → PrngReg)

/-! ## The arrays the windows read: the arguments, their float format changed -/

theorem V_q (c : Dev nD) : (V m c main_v0 : S32x2048x64.Idx → EReal) = m ((c : Thread nD τ).loc main_arg0) := by
  dsimp only [V, hostOps0]; after_results; rfl
theorem V_k (c : Dev nD) : (V m c main_v1 : S32x2048x64.Idx → EReal) = m ((c : Thread nD τ).loc main_arg1) := by
  dsimp only [V, hostOps0]; after_results; rfl
theorem V_v (c : Dev nD) : (V m c main_v2 : S32x2048x64.Idx → EReal) = m ((c : Thread nD τ).loc main_arg2) := by
  dsimp only [V, hostOps0]; after_results; rfl

/-! ## The index maps, decided over the 128 grid points -/

/-- At every point the result's block index is (b, qi, 0) with b < 32 and qi < 4; the queries' block index is the same,
    and the keys' and values' is (b, 0, 0). -/
theorem idx_facts : ∀ t : Fin cfg0.N,
    win0_3.index t (0 : Fin 3) < 32 ∧ win0_3.index t (1 : Fin 3) < 4 ∧ win0_3.index t (2 : Fin 3) = 0
    ∧ win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0 :=
  (by decide +kernel : ∀ t : Fin grid0.N, _)

/-- Every (b, qi) is some point's block index. -/
theorem idx_onto : ∀ (q0 : Fin 32) (q1 : Fin 4), ∃ t : Fin cfg0.N, win0_3.index t = ![q0.val, q1.val, 0] :=
  (by decide +kernel : ∀ (q0 : Fin 32) (q1 : Fin 4), ∃ t : Fin grid0.N, win0_3.index t = ![q0.val, q1.val, 0])

/-! ## What a point writes back -/

theorem hz : (![0, 0, 0] : Fin 3 → Nat) = fun _ => 0 := funext fun a => by fin_cases a <;> rfl

/-- What point t writes back is block t of the output function of the argument arrays. -/
theorem flushed_eq (c : Dev nD) (t : Fin cfg0.N) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  rw [Cert.KernelIdeal.Value.flushed3]
  unfold out0_3
  rw [View.canon_unit_zero hz]
  simp only [View.ld_unit_zero (S := S1x512x64) hz, View.ld_unit_zero (S := S1x2048x64) hz]
  obtain ⟨e0, e1, e2, a0, a1, a2, b0, b1, b2, c0, c1, c2⟩ := idx_facts t
  funext y
  show k0_pay1 (F := Ideal) (iblk m c 0 t) (iblk m c 1 t) (iblk m c 2 t) y
    = G (m ((c : Thread nD τ).loc main_arg0)) (m ((c : Thread nD τ).loc main_arg1)) (m ((c : Thread nD τ).loc main_arg2))
        (((cfg0.win 3).blk t).view.emb y)
  refine block_entry (iblk m c 0 t) (iblk m c 1 t) (iblk m c 2 t) _ _ _ ⟨win0_3.index t (0 : Fin 3), e0⟩
    (win0_3.index t (1 : Fin 3) * 512) (by omega) ?_ ?_ ?_ y _ ?_ ?_ ?_
  · intro z
    show V m c main_v0 (((cfg0.win 0).blk t).view.emb z) = _
    rw [V_q]
    refine congrArg _ (funext fun a => Fin.ext ?_)
    match a with
    | ⟨0, _⟩ =>
      show win0_0.index t (0 : Fin 3) * 1 + 1 * (z 0).val = win0_3.index t (0 : Fin 3)
      have hz0 : (z 0).val < 1 := (z 0).isLt
      omega
    | ⟨1, _⟩ =>
      show win0_0.index t (1 : Fin 3) * 512 + 1 * (z 1).val = win0_3.index t (1 : Fin 3) * 512 + (z 1).val
      omega
    | ⟨2, _⟩ =>
      show win0_0.index t (2 : Fin 3) * 64 + 1 * (z 2).val = (z 2).val
      omega
  · intro z
    show V m c main_v1 (((cfg0.win 1).blk t).view.emb z) = _
    rw [V_k]
    refine congrArg _ (funext fun a => Fin.ext ?_)
    match a with
    | ⟨0, _⟩ =>
      show win0_1.index t (0 : Fin 3) * 1 + 1 * (z 0).val = win0_3.index t (0 : Fin 3)
      have hz0 : (z 0).val < 1 := (z 0).isLt
      omega
    | ⟨1, _⟩ =>
      show win0_1.index t (1 : Fin 3) * 2048 + 1 * (z 1).val = (z 1).val
      omega
    | ⟨2, _⟩ =>
      show win0_1.index t (2 : Fin 3) * 64 + 1 * (z 2).val = (z 2).val
      omega
  · intro z
    show V m c main_v2 (((cfg0.win 2).blk t).view.emb z) = _
    rw [V_v]
    refine congrArg _ (funext fun a => Fin.ext ?_)
    match a with
    | ⟨0, _⟩ =>
      show win0_2.index t (0 : Fin 3) * 1 + 1 * (z 0).val = win0_3.index t (0 : Fin 3)
      have hz0 : (z 0).val < 1 := (z 0).isLt
      omega
    | ⟨1, _⟩ =>
      show win0_2.index t (1 : Fin 3) * 2048 + 1 * (z 1).val = (z 1).val
      omega
    | ⟨2, _⟩ =>
      show win0_2.index t (2 : Fin 3) * 64 + 1 * (z 2).val = (z 2).val
      omega
  · show win0_3.index t (0 : Fin 3) * 1 + 1 * (y 0).val = win0_3.index t (0 : Fin 3)
    have hy0 : (y 0).val < 1 := (y 0).isLt
    omega
  · show win0_3.index t (1 : Fin 3) * 512 + 1 * (y 1).val = win0_3.index t (1 : Fin 3) * 512 + (y 1).val
    omega
  · show win0_3.index t (2 : Fin 3) * 64 + 1 * (y 2).val = (y 2).val
    omega

/-! ## The blocks cover the array -/

/-- An index of the array is in point t's block iff each coordinate is in the block's range on its axis. -/
theorem mem_blk (t : Fin cfg0.N) (i : S32x2048x64.Idx) :
    i ∈ ((cfg0.win 3).blk t).view.set ↔ ∀ a : Fin 3, win0_3.index t a * S1x512x64.size a ≤ (i a).val
      ∧ (i a).val < win0_3.index t a * S1x512x64.size a + S1x512x64.size a := by
  show i ∈ ((View.whole main_v3).slice (win0_3.rect t)).set ↔ _
  rw [View.set_slice_whole, Rect.mem_set_unit]
  exact Iff.rfl

/-- Every index (b, q, d) of the result is in the block of the point whose block index is (b, q / 512, 0). -/
theorem cover (i : S32x2048x64.Idx) :
    ∃ t : Fin cfg0.N, (cfg0.win 3).flush t = true ∧ i ∈ ((cfg0.win 3).blk t).view.set := by
  have hi0 : (i 0).val < 32 := (i 0).isLt
  have hi1 : (i 1).val < 2048 := (i 1).isLt
  have hi2 : (i 2).val < 64 := (i 2).isLt
  obtain ⟨t, ht⟩ := idx_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 512 ≤ (i 1).val ∧ (i 1).val < win0_3.index t (1 : Fin 3) * 512 + 512
    omega
  | ⟨2, _⟩ =>
    show win0_3.index t (2 : Fin 3) * 64 ≤ (i 2).val ∧ (i 2).val < win0_3.index t (2 : Fin 3) * 64 + 64
    omega

/-! ## The array after the run, and the run -/

/-- After the run the result array is the output function of the argument arrays. -/
theorem final (c : Dev nD) : (dats m 0 c).arrAt 3 cfg0.N
    = G (m ((c : Thread nD τ).loc main_arg0)) (m ((c : Thread nD τ).loc main_arg1)) (m ((c : Thread nD τ).loc main_arg2)) :=
  (dats m 0 c).arrAt_eq_of_cover 3 _ (fun t _ => flushed_eq m c t) cover

/-- Every weakly fair execution of the kernel's program terminates with the result array at the output function of
    the argument arrays, and the arguments unchanged. -/
theorem run : θ_run defs (onTc (τ := τ) (main (F := Ideal))) ⟨m, fun _ => 0, ρ⟩ fun r => ∀ c : Dev nD,
      r.2.mem ((c : Thread nD τ).loc main_v3)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.Attn.Kernel

end
-- ==== Proof.RefValue.lean ====
/-
  The reference computes the attention output function, on arrays of real numbers.

  The reference forms, for batch entry b, query row q and key row j,
      s[b, q, j] = (Σ_e Q[b, q, e] · K[b, j, e]) / √64,
  takes the row maximum m[b, q] (a maximum over j from −∞, and once more against −∞), the exponentials
  p = exp (s − m), their row sums l = 0 + Σ_j p, the weights p / l, and finally Σ_j (p / l)[b, q, j] · V[b, j, d].
  Every step is read at coordinates; the two places where this differs from the output function of Spec — the scale
  as a division by √64 instead of a factor ⅛, and the weights divided before the weighted sum instead of after — are
  the two laws of AttnLaws, which hold because the arrays' entries are real numbers.
-/
import proofs.«128157_j9543417332177_2_alg».proof.Proof.Gen.ReferenceIdeal.Read
import proofs.«128157_j9543417332177_2_alg».proof.Proof.Spec
import Idealize.ShloMosaic.Lib.ValueIdx
import Idealize.ShloMosaic.PureOps.Ideal.Laws

noncomputable section

namespace Cert.Attn.Ref

open Idealize.ShloMosaic Idealize.ShloMosaic.ValueIdx Cert.ReferenceIdeal Cert.ReferenceIdeal.Gen Cert.ReferenceIdeal.Read
open Cert.Attn

variable (x0 x1 x2 : FVec Ideal S32x2048x64 .f32)

/-- The reference's scores at (b, q, j): the dot product of query row q and key row j, divided by √64. -/
theorem score_apply (b : Fin 32) (q j : Fin 2048) :
    val_main_v3 (F := Ideal) x0 x1 (ix3 b q j)
      = Ideal.div (∑ e : Fin 64, x0 (ix3 b q e) * x1 (ix3 b j e)) (Ideal.sqrt (Ideal.ofBits .f32 0x42800000#32)) := by
  rw [val_main_v3_apply, val_main_v0_apply, val_main_v2_apply, val_main_v1_apply, val_main_cst_apply]
  refine congrArg₂ Ideal.div (Finset.sum_congr rfl fun e _ => ?_) rfl
  rw [show lidx_main_v0 (ix3 b q j) e = ix3 b q e from funext fun a => Fin.ext (by
        match a with
        | ⟨0, _⟩ => rfl
        | ⟨1, _⟩ => rfl
        | ⟨2, _⟩ => rfl),
    show ridx_main_v0 (ix3 b q j) e = ix3 b j e from funext fun a => Fin.ext (by
        match a with
        | ⟨0, _⟩ => rfl
        | ⟨1, _⟩ => rfl
        | ⟨2, _⟩ => rfl)]

/-- On real arrays the reference's scores are the row of scores of the output function. -/
theorem score_eq_scoreRow (h0 : ∀ i, IsReal (x0 i)) (h1 : ∀ i, IsReal (x1 i)) (b : Fin 32) (q j : Fin 2048) :
    val_main_v3 (F := Ideal) x0 x1 (ix3 b q j) = scoreRow x0 x1 b q j :=
  (score_apply x0 x1 b q j).trans (score_eq _ _ (fun _ => h0 _) (fun _ => h1 _))

/-- The reference's row maximum over the key axis, from −∞, at (b, q). -/
theorem max_apply (b : Fin 32) (q : Fin 2048) :
    val_main_v4 (F := Ideal) x0 x1 (ix2 b q) = rowMax (fun j : Fin 2048 => val_main_v3 (F := Ideal) x0 x1 (ix3 b q j)) := by
  have hR : S32x2048x2048.Reduces [2] S32x2048 := by decide
  unfold val_main_v4 rowMax
  refine (Host.reduce_eq_fold_single (FloatOps.maximumf (F := Ideal) (φ := .f32)) (val_main_v3 (F := Ideal) x0 x1)
    (val_main_cst_0 (F := Ideal)) reducesTo_S32x2048x2048_S32x2048_d2 hR h_S_ (ix2 b q)).trans ?_
  exact congrArg ((Finset.univ : Finset (Fin 2048)).fold max (Ideal.ofBits .f32 0xFF800000#32))
    (funext fun j => congrArg (val_main_v3 (F := Ideal) x0 x1) (funext fun a => Fin.ext (by
      match a with
      | ⟨0, _⟩ => rfl
      | ⟨1, _⟩ => rfl
      | ⟨2, _⟩ => rfl)))

/-- The maximum taken once more against −∞ is the same row maximum. -/
theorem max6_apply (b : Fin 32) (q : Fin 2048) :
    val_main_v6 (F := Ideal) x0 x1 (ix2 b q) = rowMax (fun j : Fin 2048 => val_main_v3 (F := Ideal) x0 x1 (ix3 b q j)) := by
  rw [val_main_v6_apply, val_main_v5_apply, val_main_cst_1_apply, max_apply]
  exact max_neg_inf_rowMax _

/-- The exponentials of the scores less their row maximum, at (b, q, j). -/
theorem exp_apply (b : Fin 32) (q j : Fin 2048) :
    val_main_v10 (F := Ideal) x0 x1 (ix3 b q j)
      = Ideal.exp (val_main_v3 (F := Ideal) x0 x1 (ix3 b q j)
          - rowMax (fun j' : Fin 2048 => val_main_v3 (F := Ideal) x0 x1 (ix3 b q j'))) := by
  rw [val_main_v10_apply, val_main_v9_apply, val_main_v8_apply, val_main_v7_apply,
    show idx_main_v7 (idx_main_v8 (ix3 b q j)) = ix2 b q from funext fun a => Fin.ext (by
        match a with
        | ⟨0, _⟩ => rfl
        | ⟨1, _⟩ => rfl),
    max6_apply]
  rfl

/-- The row sums of the exponentials, started from the pattern of 0, at (b, q). -/
theorem sum_apply (b : Fin 32) (q : Fin 2048) :
    val_main_v11 (F := Ideal) x0 x1 (ix2 b q)
      = Ideal.ofBits .f32 0x00000000#32 + ∑ j : Fin 2048, Ideal.exp (val_main_v3 (F := Ideal) x0 x1 (ix3 b q j)
          - rowMax (fun j' : Fin 2048 => val_main_v3 (F := Ideal) x0 x1 (ix3 b q j'))) := by
  rw [val_main_v11_apply]
  refine congrArg₂ (· + ·) rfl (Finset.sum_congr rfl fun j _ => ?_)
  rw [show idx_main_v11 (ix2 b q) j = ix3 b q j from funext fun a => Fin.ext (by
        match a with
        | ⟨0, _⟩ => rfl
        | ⟨1, _⟩ => rfl
        | ⟨2, _⟩ => rfl),
    exp_apply]

/-- The normalised weights, at (b, q, j). -/
theorem weight_apply (b : Fin 32) (q j : Fin 2048) :
    val_main_v14 (F := Ideal) x0 x1 (ix3 b q j)
      = Ideal.div (Ideal.exp (val_main_v3 (F := Ideal) x0 x1 (ix3 b q j)
            - rowMax (fun j' : Fin 2048 => val_main_v3 (F := Ideal) x0 x1 (ix3 b q j'))))
          (Ideal.ofBits .f32 0x00000000#32 + ∑ j' : Fin 2048, Ideal.exp (val_main_v3 (F := Ideal) x0 x1 (ix3 b q j')
            - rowMax (fun j'' : Fin 2048 => val_main_v3 (F := Ideal) x0 x1 (ix3 b q j'')))) := by
  rw [val_main_v14_apply, val_main_v13_apply, val_main_v12_apply,
    show idx_main_v12 (idx_main_v13 (ix3 b q j)) = ix2 b q from funext fun a => Fin.ext (by
        match a with
        | ⟨0, _⟩ => rfl
        | ⟨1, _⟩ => rfl),
    sum_apply, exp_apply]
  rfl

/-- The reference's result at (b, q, d), on real arrays, is the output function's entry. -/
theorem result_apply (h0 : ∀ i, IsReal (x0 i)) (h1 : ∀ i, IsReal (x1 i)) (h2 : ∀ i, IsReal (x2 i))
    (b : Fin 32) (q : Fin 2048) (d : Fin 64) :
    val_main_v15 (F := Ideal) x0 x1 x2 (ix3 b q d) = Gat x0 x1 x2 b q d := by
  have hS : (fun j : Fin 2048 => val_main_v3 (F := Ideal) x0 x1 (ix3 b q j)) = scoreRow x0 x1 b q :=
    funext fun j => score_eq_scoreRow x0 x1 h0 h1 b q j
  rw [val_main_v15_apply]
  have hterm : ∀ j : Fin 2048, val_main_v14 (F := Ideal) x0 x1 (lidx_main_v15 (ix3 b q d) j) * x2 (ridx_main_v15 (ix3 b q d) j)
      = Ideal.div (Ideal.exp (scoreRow x0 x1 b q j - rowMax (scoreRow x0 x1 b q)))
          (Ideal.ofBits .f32 0x00000000#32 + ∑ j' : Fin 2048, Ideal.exp (scoreRow x0 x1 b q j' - rowMax (scoreRow x0 x1 b q)))
        * x2 (ix3 b j d) := fun j => by
    rw [show lidx_main_v15 (ix3 b q d) j = ix3 b q j from funext fun a => Fin.ext (by
          match a with
          | ⟨0, _⟩ => rfl
          | ⟨1, _⟩ => rfl
          | ⟨2, _⟩ => rfl),
      show ridx_main_v15 (ix3 b q d) j = ix3 b j d from funext fun a => Fin.ext (by
          match a with
          | ⟨0, _⟩ => rfl
          | ⟨1, _⟩ => rfl
          | ⟨2, _⟩ => rfl),
      weight_apply, hS]
    simp only [← congrFun hS]
  rw [Finset.sum_congr rfl fun j _ => hterm j]
  exact softmax_dot_eq (scoreRow x0 x1 b q) (fun j => x2 (ix3 b j d)) 0
    (fun j => score_isReal _ _ (fun _ => h0 _) (fun _ => h1 _)) (fun _ => h2 _)

/-- On real arrays the reference's result array is the output function of the three arrays. -/
theorem result_eq (h0 : ∀ i, IsReal (x0 i)) (h1 : ∀ i, IsReal (x1 i)) (h2 : ∀ i, IsReal (x2 i)) :
    val_main_v15 (F := Ideal) x0 x1 x2 = G x0 x1 x2 := by
  funext i
  obtain ⟨b, q, d, rfl⟩ : ∃ (b : Fin 32) (q : Fin 2048) (d : Fin 64), i = ix3 b q d := ⟨i 0, i 1, i 2, eq_ix3 i⟩
  exact result_apply x0 x1 x2 h0 h1 h2 b q d

end Cert.Attn.Ref

end
-- ==== Proof.lean ====
/-
  Scaled dot-product attention, tiled over the query rows, against its plain reference.

  Both programs take queries Q, keys K and values V of shape [32, 2048, 64]. The kernel handles one tile of 512 query
  rows of one batch entry at a time: it scales the tile by ⅛ = 1/√64, multiplies it with the transposed keys, subtracts
  each row's maximum, exponentiates, multiplies the exponentials with the values and divides each row of the product by
  the row's sum of exponentials. The reference divides Q·Kᵀ by √64, applies the softmax along the key axis (maximum,
  exponentials, their sum, the quotient) and multiplies the weights with V.

  On the extended reals the two differ in two places only: the scale (a factor ⅛ inside the product against a division
  by √64 = 8 after it) and the normalisation (one division after the weighted sum against a division of every weight
  before it). Both are instances of distributivity, which holds on real numbers and fails at the infinities; the
  precondition — every entry of Q, K, V finite — makes every quantity involved a real number (the row maximum lies
  between a score and a bound of the scores; the sum of exponentials is a positive real).

  The parts: AttnLaws (the two laws), InputsReal (the precondition gives real entries), Spec (the output as one function
  of Q, K, V), Payload and KernelValue (the kernel's result array is that function, block by block), RefValue (so is
  the reference's, on real arrays). The three frame claims are the generated runs; the idealised kernel is the kernel's
  own text, so there is nothing to preserve.
-/
import proofs.«128157_j9543417332177_2_alg».proof.Defs
import proofs.«128157_j9543417332177_2_alg».proof.Proof.Gen.Kernel
import proofs.«128157_j9543417332177_2_alg».proof.Proof.Gen.Kernel.Skeleton
import proofs.«128157_j9543417332177_2_alg».proof.Proof.Gen.Kernel.Launch
import proofs.«128157_j9543417332177_2_alg».proof.Proof.Gen.Kernel.Points
import proofs.«128157_j9543417332177_2_alg».proof.Proof.Gen.Kernel.Frame
import proofs.«128157_j9543417332177_2_alg».proof.Proof.Gen.KernelIdeal
import proofs.«128157_j9543417332177_2_alg».proof.Proof.Gen.KernelIdeal.Skeleton
import proofs.«128157_j9543417332177_2_alg».proof.Proof.Gen.KernelIdeal.Launch
import proofs.«128157_j9543417332177_2_alg».proof.Proof.Gen.KernelIdeal.Points
import proofs.«128157_j9543417332177_2_alg».proof.Proof.Gen.KernelIdeal.Frame
import proofs.«128157_j9543417332177_2_alg».proof.Proof.Gen.ReferenceIdeal
import proofs.«128157_j9543417332177_2_alg».proof.Proof.Gen.Pre_finite_inputs
import proofs.«128157_j9543417332177_2_alg».proof.Proof.Gen.KernelIdeal.Value
import proofs.«128157_j9543417332177_2_alg».proof.Proof.Gen.ReferenceIdeal.Run
import proofs.«128157_j9543417332177_2_alg».proof.Proof.Gen.ReferenceIdeal.Read
import proofs.«128157_j9543417332177_2_alg».proof.Proof.InputsReal
import proofs.«128157_j9543417332177_2_alg».proof.Proof.KernelValue
import proofs.«128157_j9543417332177_2_alg».proof.Proof.RefValue
import Idealize.ShloMosaic.Adequacy
import Idealize.ShloMosaic.Init

noncomputable section

namespace Cert.Proof

open Idealize.ShloMosaic Idealize.SL.Sem Cert.Kernel

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on Q, K, V, all finite, both programs end with the attention output function of Q, K, V
    in their result arrays: the kernel by its blocks, the reference by the two laws on real numbers. -/
theorem algebraic : Cert.algebraic_KernelIdeal_ReferenceIdeal := by
  intro m ρ m' ρ' hpre hagree
  refine ⟨_, Cert.Attn.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨r0, r1, r2⟩ := Cert.Attn.real_of_pre _ _ _ (hpre c)
  rw [Cert.ReferenceIdeal.Read.val_main_v15_eq, (hagree c).1, (hagree c).2.1, (hagree c).2.2]
  exact Cert.Attn.Ref.result_eq _ _ _ r0 r1 r2

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
